-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x800000 32) (main_arg2 : FVec F S256x128 .f32) (main_arg3 : FVec F S128 .f32) (main_arg4 : FVec F S128x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x128 : Shape := ⟨2, ![100000, 128]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x128 : Shape := ⟨2, ![128, 128]⟩
abbrev S1x128 : Shape := ⟨2, ![1, 128]⟩
abbrev S1x1 : Shape := ⟨2, ![1, 1]⟩
abbrev S10000x128 : Shape := ⟨2, ![10000, 128]⟩
abbrev S10000x1 : Shape := ⟨2, ![10000, 1]⟩

abbrev nBuf : Space → Nat
  | .hbm => 37
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S100000x128, .bf16⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .bf16⟩
  | .hbm, ⟨29, _⟩ => ⟨S128x128, .f32⟩
  | .hbm, ⟨30, _⟩ => ⟨S128x128, .bf16⟩
  | .hbm, ⟨31, _⟩ => ⟨S128x128, .f32⟩
  | .hbm, ⟨32, _⟩ => ⟨S128x128, .bf16⟩
  | .hbm, ⟨33, _⟩ => ⟨S1x128, .f32⟩
  | .hbm, ⟨34, _⟩ => ⟨S128x1, .bf16⟩
  | .hbm, ⟨35, _⟩ => ⟨S1x1, .f32⟩
  | .hbm, ⟨36, _⟩ => ⟨S800000x1, .f32⟩
  | .local _ .vmem, ⟨0, _⟩ => ⟨S10000x128, .bf16⟩
  | .local _ .vmem, ⟨1, _⟩ => ⟨S10000x128, .bf16⟩
  | .local _ .vmem, ⟨2, _⟩ => ⟨S10000x128, .bf16⟩
  | .local _ .vmem, ⟨3, _⟩ => ⟨S10000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x1, .bf16⟩
  | .local _ .vmem, ⟨8, _⟩ => ⟨S1x1, .f32⟩
  | .local _ .vmem, ⟨9, _⟩ => ⟨S10000x1, .f32⟩
  | .local _ .vmem, ⟨10, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S100000x128_S800000x1_S800000x128_1_0_n_n_0_1_1128_wf : GatherDims.WF S100000x128 S800000x1 S800000x128 [1] [0] [] [0] [] 1 ![1, 128]
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S800000x128.size a
  hwx0_0 : ∀ i : grid0.Coords, EltTy.bits .bf16 = 32 ∨ (Rect.block (s := S800000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S800000x128.size a
  hwx0_1 : ∀ i : grid0.Coords, EltTy.bits .bf16 = 32 ∨ (Rect.block (s := S800000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .bf16 = 32 ∨ (Rect.block (s := S128x1) S128x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x1.size a ≤ S800000x1.size a
  hwx0_7 : ∀ i : grid0.Coords, EltTy.bits .f32 = 32 ∨ (Rect.block (s := S800000x1) S10000x1.size (cc0_transform_7 i) (hinb0_7 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v11) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S10000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S128x128, .f32⟩
  | .hbm, ⟨11, _⟩ => ⟨S128x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x128, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S800000x128, .f32⟩
  | .hbm, ⟨38, _⟩ => ⟨S800000x128, .f32⟩
  | .hbm, ⟨39, _⟩ => ⟨S800000x1, .f32⟩
  | .hbm, ⟨40, _⟩ => ⟨S1x1, .f32⟩
  | .hbm, ⟨41, _⟩ => ⟨S800000x1, .f32⟩
  | .hbm, ⟨42, _⟩ => ⟨S800000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S256x128_S128x128_0_0 : S256x128.Slices ![0, 0] S128x128
  slices_S256x128_S128x128_128_0 : S256x128.Slices ![128, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  gather_S100000x128_S800000x1_S800000x128_1_0_n_n_0_1_1128_wf : GatherDims.WF S100000x128 S800000x1 S800000x128 [1] [0] [] [0] [] 1 ![1, 128]
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.EdgeScore.lean ====
/-
  The score of one edge of the decoder, as plain mathematics on the extended reals.

  An edge `e` has a source row `zs e` and a destination row `zd e` of 128 node features each. The first layer
  multiplies the source row by the upper half `w1s` of the weight matrix and the destination row by its lower
  half `w1d`, adds the two products and the bias `b1`, and clamps below at zero; the second layer takes the
  inner product of that hidden row with the column `w2` and adds the scalar bias `b2`:

      score e = (∑ k, max ((∑ j, zs e j * w1s j k) + (∑ j, zd e j * w1d j k) + b1 k) 0 * w2 k) + b2.

  The score of `e` reads only row `e` of `zs` and `zd`: a tile of consecutive edges computes the restriction of
  the same function, which is what lets the tiled computation and the whole-array one be compared row by row.
-/
import Idealize.ShloMosaic.PureOps.Ideal

noncomputable section

namespace Cert.EdgeMlp

/-- The two-layer score of edge `e`; `ι` is whatever indexes the edges at hand (a tile's rows, or all edges). -/
def score {ι : Type} (zs zd : ι → Fin 128 → EReal) (w1s w1d : Fin 128 → Fin 128 → EReal) (b1 : Fin 128 → EReal)
    (w2 : Fin 128 → EReal) (b2 : EReal) (e : ι) : EReal :=
  (∑ k : Fin 128, max (((∑ j : Fin 128, zs e j * w1s j k) + ∑ j : Fin 128, zd e j * w1d j k) + b1 k) 0 * w2 k) + b2

/-- The score of the edge at position `f r` of a longer list, computed from the rows the re-indexing `f` selects,
    is the score of that edge in the longer list: only the edge's own two rows are read. -/
theorem score_comp {ι κ : Type} (f : ι → κ) (zs zd : κ → Fin 128 → EReal) (w1s w1d : Fin 128 → Fin 128 → EReal)
    (b1 w2 : Fin 128 → EReal) (b2 : EReal) (r : ι) :
    score (fun r j => zs (f r) j) (fun r j => zd (f r) j) w1s w1d b1 w2 b2 r = score zs zd w1s w1d b1 w2 b2 (f r) := rfl

end Cert.EdgeMlp

end
-- ==== Proof.Payload.lean ====
/-
  What the kernel body stores for one tile, read at a row: the score of that row of the tile.

  The body loads a tile of 10000 source rows and 10000 destination rows, the two 128 × 128 weight halves, the
  bias row, the weight column and the scalar bias, and stores `(relu (zs · w1s + zd · w1d + b1)) · w2 + b2`. On the
  extended reals each matrix product into a zero accumulator is the plain sum over the contracted index, the
  change of float format is the identity, and the two broadcasts read the bias row at the column and the scalar
  bias at its one entry; so entry `(p, 0)` of the stored block is `score` at row `p`.
-/
import proofs.«105263_j71511205478789_2_alg».proof.Proof.Gen.KernelIdeal.Skeleton
import proofs.«105263_j71511205478789_2_alg».proof.Proof.EdgeScore
import Idealize.ShloMosaic.Lib.ValueIdx
import Idealize.ShloMosaic.Lib.Pipeline.Value
import Idealize.ShloMosaic.PureOps.Ideal.Laws

noncomputable section

namespace Cert.EdgeMlp

open Idealize.ShloMosaic Idealize.ShloMosaic.ValueIdx Cert.KernelIdeal Cert.KernelIdeal.Gen
open Cert.KernelIdeal.Facts₀

/-! ## The two matrix products at an entry -/

local notation "D1" => dot_S10000x128_S128x128_S10000x128_1_0_0_1_n_n
local notation "D2" => dot_S10000x128_S128x1_S10000x1_1_0_0_1_n_n

theorem d1_lhs0 (i : S10000x128.Idx) (q : (D1).contr.Idx) : ((D1).lhsIdx i q 0).val = (i 0).val := by
  unfold DotDims.lhsIdx
  rw [dif_neg (show ¬(0 : Fin S10000x128.rank) ∈ (D1).lhsBatch by decide), dif_pos (show (0 : Fin S10000x128.rank) ∈ (D1).lhsNonContracting by decide)]
  rfl
theorem d1_lhs1 (i : S10000x128.Idx) (q : (D1).contr.Idx) : ((D1).lhsIdx i q 1).val = (q ⟨0, by decide⟩).val :=
  (D1).lhsIdx_val_of_single rfl i q
theorem d1_rhs0 (i : S10000x128.Idx) (q : (D1).contr.Idx) : ((D1).rhsIdx i q 0).val = (q ⟨0, by decide⟩).val :=
  (D1).rhsIdx_val_of_single rfl i q
theorem d1_rhs1 (i : S10000x128.Idx) (q : (D1).contr.Idx) : ((D1).rhsIdx i q 1).val = (i 1).val := by
  unfold DotDims.rhsIdx
  rw [dif_neg (show ¬(1 : Fin S128x128.rank) ∈ (D1).rhsBatch by decide), dif_pos (show (1 : Fin S128x128.rank) ∈ (D1).rhsNonContracting by decide)]
  rfl

/-- A tile of rows times a 128 × 128 matrix, into zeros: entry `(p, k)` is the sum over `j` of row `p` times column `k`. -/
theorem rows_times_matrix {φ₁ φ₂ : FTy} (X : FVec Ideal S10000x128 φ₁) (W : FVec Ideal S128x128 φ₂) (p : Fin 10000) (k : Fin 128) :
    matmul D1 none X W (constant S10000x128 .f32 0x00000000#32) (ix2 p k) = ∑ j : Fin 128, X (ix2 p j) * W (ix2 j k) := by
  simp only [matmul]
  rw [Ideal.matmul_constant_zero_apply, ← Equiv.sum_comp (contrEquiv1 D1 128 rfl rfl).symm]
  refine Finset.sum_congr rfl fun j _ => ?_
  have hj := contrEquiv1_symm_val D1 128 rfl rfl j
  have el : (D1).lhsIdx (ix2 p k) ((contrEquiv1 D1 128 rfl rfl).symm j) = ix2 p j := funext fun a => Fin.ext (by
    match a with
    | ⟨0, _⟩ => exact d1_lhs0 _ _
    | ⟨1, _⟩ => exact (d1_lhs1 _ _).trans hj)
  have er : (D1).rhsIdx (ix2 p k) ((contrEquiv1 D1 128 rfl rfl).symm j) = ix2 j k := funext fun a => Fin.ext (by
    match a with
    | ⟨0, _⟩ => exact (d1_rhs0 _ _).trans hj
    | ⟨1, _⟩ => exact d1_rhs1 _ _)
  rw [el, er]

theorem d2_lhs0 (i : S10000x1.Idx) (q : (D2).contr.Idx) : ((D2).lhsIdx i q 0).val = (i 0).val := by
  unfold DotDims.lhsIdx
  rw [dif_neg (show ¬(0 : Fin S10000x128.rank) ∈ (D2).lhsBatch by decide), dif_pos (show (0 : Fin S10000x128.rank) ∈ (D2).lhsNonContracting by decide)]
  rfl
theorem d2_lhs1 (i : S10000x1.Idx) (q : (D2).contr.Idx) : ((D2).lhsIdx i q 1).val = (q ⟨0, by decide⟩).val :=
  (D2).lhsIdx_val_of_single rfl i q
theorem d2_rhs0 (i : S10000x1.Idx) (q : (D2).contr.Idx) : ((D2).rhsIdx i q 0).val = (q ⟨0, by decide⟩).val :=
  (D2).rhsIdx_val_of_single rfl i q
theorem d2_rhs1 (i : S10000x1.Idx) (q : (D2).contr.Idx) : ((D2).rhsIdx i q 1).val = (i 1).val := by
  unfold DotDims.rhsIdx
  rw [dif_neg (show ¬(1 : Fin S128x1.rank) ∈ (D2).rhsBatch by decide), dif_pos (show (1 : Fin S128x1.rank) ∈ (D2).rhsNonContracting by decide)]
  rfl

/-- A tile of hidden rows times the weight column, into zeros: entry `(p, 0)` is the inner product of row `p` with the column. -/
theorem rows_times_column {φ₁ φ₂ : FTy} (H : FVec Ideal S10000x128 φ₁) (W : FVec Ideal S128x1 φ₂) (p : Fin 10000) (q : Fin 1) :
    matmul D2 none H W (constant S10000x1 .f32 0x00000000#32) (ix2 p q) = ∑ k : Fin 128, H (ix2 p k) * W (ix2 k q) := by
  simp only [matmul]
  rw [Ideal.matmul_constant_zero_apply, ← Equiv.sum_comp (contrEquiv1 D2 128 rfl rfl).symm]
  refine Finset.sum_congr rfl fun k _ => ?_
  have hk := contrEquiv1_symm_val D2 128 rfl rfl k
  have el : (D2).lhsIdx (ix2 p q) ((contrEquiv1 D2 128 rfl rfl).symm k) = ix2 p k := funext fun a => Fin.ext (by
    match a with
    | ⟨0, _⟩ => exact d2_lhs0 _ _
    | ⟨1, _⟩ => exact (d2_lhs1 _ _).trans hk)
  have er : (D2).rhsIdx (ix2 p q) ((contrEquiv1 D2 128 rfl rfl).symm k) = ix2 k q := funext fun a => Fin.ext (by
    match a with
    | ⟨0, _⟩ => exact (d2_rhs0 _ _).trans hk
    | ⟨1, _⟩ => exact d2_rhs1 _ _)
  rw [el, er]

/-! ## The two broadcasts at an entry -/

/-- The bias row spread over the tile's rows: entry `(p, k)` is the row's entry `k`. -/
theorem bias_row_apply {α : Type} (x : S1x128.Idx → α) (h : S1x128.Broadcasts S10000x128) (p : Fin 10000) (k : Fin 128) :
    broadcastTo S10000x128 x h (ix2 p k) = x (ix2 0 k) :=
  broadcastTo_apply x h (ix2 p k) (ix2 0 k) (fun a => match a with
    | ⟨0, _⟩ => by show 0 = if (1 : Nat) = 1 then 0 else _; rw [if_pos rfl]
    | ⟨1, _⟩ => by show k.val = if (128 : Nat) = 1 then 0 else k.val; rw [if_neg (by decide)])

/-- The scalar bias spread over the tile's rows: every entry is its one entry. -/
theorem bias_scalar_apply {α : Type} (x : S1x1.Idx → α) (h : S1x1.Broadcasts S10000x1) (p : Fin 10000) (q : Fin 1) :
    broadcastTo S10000x1 x h (ix2 p q) = x (ix2 0 0) :=
  broadcastTo_apply x h (ix2 p q) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-! ## The stored block at a row -/

/-- Entry `(p, 0)` of the block the body stores is the score of row `p` of the tile. -/
theorem payload_apply (x0 x1 : Vec Ideal S10000x128 .bf16) (x2 x3 : Vec Ideal S128x128 .bf16) (x4 : Vec Ideal S1x128 .f32)
    (x5 : Vec Ideal S128x1 .bf16) (x6 : Vec Ideal S1x1 .f32) (p : Fin 10000) (q : Fin 1) :
    k0_pay1 (F := Ideal) x0 x1 x2 x3 x4 x5 x6 (ix2 p q)
      = score (fun r j => x0 (ix2 r j)) (fun r j => x1 (ix2 r j)) (fun j k => x2 (ix2 j k)) (fun j k => x3 (ix2 j k))
          (fun k => x4 (ix2 0 k)) (fun k => x5 (ix2 k 0)) (x6 (ix2 0 0)) p := by
  obtain rfl : q = 0 := Subsingleton.elim _ _
  unfold k0_pay1
  simp only [shapeCast_self]
  show (matmul (F := Ideal) D2 none _ x5 (constant S10000x1 .f32 0x00000000#32) (ix2 p 0) : EReal)
      + (broadcastTo S10000x1 x6 _ (ix2 p 0) : EReal) = _
  rw [rows_times_column, bias_scalar_apply]
  unfold score
  refine congrArg (· + x6 (ix2 0 0)) (Finset.sum_congr rfl fun k _ => ?_)
  show max (((matmul (F := Ideal) D1 none x0 x2 (constant S10000x128 .f32 0x00000000#32) (ix2 p k) : EReal)
        + (matmul (F := Ideal) D1 none x1 x3 (constant S10000x128 .f32 0x00000000#32) (ix2 p k) : EReal))
      + (broadcastTo S10000x128 x4 _ (ix2 p k) : EReal)) (Ideal.ofBits .f32 0x00000000#32) * (x5 (ix2 k 0) : EReal) = _
  rw [rows_times_matrix, rows_times_matrix, bias_row_apply, Ideal.ofBits_zero_f32]

end Cert.EdgeMlp

end
-- ==== Proof.KernelValue.lean ====
/-
  The kernel's result array as one function of the seven arrays its call is given.

  The call runs over 80 tiles of 10000 consecutive edges. Tile `t` reads rows `t * 10000 … t * 10000 + 9999` of the
  two gathered arrays and the whole of the five small operands, and writes rows `t * 10000 …` of the result. The
  score of an edge reads only that edge's own two rows, so what tile `t` writes is rows `t * 10000 …` of ONE
  whole-array function, `tiledScores`; the 80 tiles cover the 800000 rows, the tile of row `r` being `r / 10000`;
  hence after the run the result array is `tiledScores` of the arrays as the call found them.
-/
import proofs.«105263_j71511205478789_2_alg».proof.Proof.Gen.KernelIdeal.Value
import proofs.«105263_j71511205478789_2_alg».proof.Proof.Payload

noncomputable section

namespace Cert.EdgeMlp

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- Every edge's score, over the arrays as the call is given them: the two gathered row arrays, the two halves of
    the first weight matrix, the bias as a row, the weight column, and the scalar bias as a 1 × 1 array. -/
def tiledScores (ZS ZD : Vec Ideal S800000x128 .bf16) (A B : Vec Ideal S128x128 .bf16) (b1 : Vec Ideal S1x128 .f32)
    (w2 : Vec Ideal S128x1 .bf16) (b2 : Vec Ideal S1x1 .f32) : Vec Ideal S800000x1 .f32 :=
  fun i => score (fun e j => ZS (ix2 e j)) (fun e j => ZD (ix2 e j)) (fun j k => A (ix2 j k)) (fun j k => B (ix2 j k))
    (fun k => b1 (ix2 0 k)) (fun k => w2 (ix2 k 0)) (b2 (ix2 0 0)) (i 0)

theorem zero_offsets : (![0, 0] : Fin 2 → Nat) = fun _ => 0 := funext fun a => by fin_cases a <;> rfl

/-- Where each window's block sits at tile `t`, decided over the 80 tiles: the two gathered arrays and the result move
    with the tile along the rows; the five small operands stay at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `r` of tile `t` is row `t * 10000 + r` of the whole. -/
def rowOf (t : Fin cfg0.N) (r : Fin 10000) : Fin 800000 :=
  ⟨t.val * 10000 + r.val, by have h : t.val < grid0.N := t.isLt; rw [N_0] at h; have := r.isLt; omega⟩

/-! ## Each window's block at tile `t`, read at an entry -/

theorem source_block (c : Dev nD) (t : Fin cfg0.N) (r : Fin 10000) (j : Fin 128) :
    iblk m c 0 t (ix2 r j) = V m c main_v11 (ix2 (rowOf t r) j) := by
  obtain ⟨e0, e1, -⟩ := block_indices t
  show V m c main_v11 (((cfg0.win 0).blk t).view.emb (ix2 r j)) = _
  refine congrArg (V m c main_v11) (funext fun a => Fin.ext ?_)
  match a with
  | ⟨0, _⟩ => show win0_0.index t (0 : Fin 2) * 10000 + 1 * r.val = t.val * 10000 + r.val; omega
  | ⟨1, _⟩ => show win0_0.index t (1 : Fin 2) * 128 + 1 * j.val = j.val; omega

theorem dest_block (c : Dev nD) (t : Fin cfg0.N) (r : Fin 10000) (j : Fin 128) :
    iblk m c 1 t (ix2 r j) = V m c main_v18 (ix2 (rowOf t r) j) := by
  obtain ⟨-, -, e0, e1, -⟩ := block_indices t
  show V m c main_v18 (((cfg0.win 1).blk t).view.emb (ix2 r j)) = _
  refine congrArg (V m c main_v18) (funext fun a => Fin.ext ?_)
  match a with
  | ⟨0, _⟩ => show win0_1.index t (0 : Fin 2) * 10000 + 1 * r.val = t.val * 10000 + r.val; omega
  | ⟨1, _⟩ => show win0_1.index t (1 : Fin 2) * 128 + 1 * j.val = j.val; omega

theorem upper_block (c : Dev nD) (t : Fin cfg0.N) (j k : Fin 128) :
    iblk m c 2 t (ix2 j k) = V m c main_v20 (ix2 j k) := by
  obtain ⟨-, -, -, -, e0, e1, -⟩ := block_indices t
  show V m c main_v20 (((cfg0.win 2).blk t).view.emb (ix2 j k)) = _
  refine congrArg (V m c main_v20) (funext fun a => Fin.ext ?_)
  match a with
  | ⟨0, _⟩ => show win0_2.index t (0 : Fin 2) * 128 + 1 * j.val = j.val; omega
  | ⟨1, _⟩ => show win0_2.index t (1 : Fin 2) * 128 + 1 * k.val = k.val; omega

theorem lower_block (c : Dev nD) (t : Fin cfg0.N) (j k : Fin 128) :
    iblk m c 3 t (ix2 j k) = V m c main_v22 (ix2 j k) := by
  obtain ⟨-, -, -, -, -, -, e0, e1, -⟩ := block_indices t
  show V m c main_v22 (((cfg0.win 3).blk t).view.emb (ix2 j k)) = _
  refine congrArg (V m c main_v22) (funext fun a => Fin.ext ?_)
  match a with
  | ⟨0, _⟩ => show win0_3.index t (0 : Fin 2) * 128 + 1 * j.val = j.val; omega
  | ⟨1, _⟩ => show win0_3.index t (1 : Fin 2) * 128 + 1 * k.val = k.val; omega

theorem bias_row_block (c : Dev nD) (t : Fin cfg0.N) (k : Fin 128) :
    iblk m c 4 t (ix2 0 k) = V m c main_v23 (ix2 0 k) := by
  obtain ⟨-, -, -, -, -, -, -, -, e0, e1, -⟩ := block_indices t
  show V m c main_v23 (((cfg0.win 4).blk t).view.emb (ix2 0 k)) = _
  refine congrArg (V m c main_v23) (funext fun a => Fin.ext ?_)
  match a with
  | ⟨0, _⟩ => show win0_4.index t (0 : Fin 2) * 1 + 1 * 0 = 0; omega
  | ⟨1, _⟩ => show win0_4.index t (1 : Fin 2) * 128 + 1 * k.val = k.val; omega

theorem column_block (c : Dev nD) (t : Fin cfg0.N) (k : Fin 128) :
    iblk m c 5 t (ix2 k 0) = V m c main_v24 (ix2 k 0) := by
  obtain ⟨-, -, -, -, -, -, -, -, -, -, e0, e1, -⟩ := block_indices t
  show V m c main_v24 (((cfg0.win 5).blk t).view.emb (ix2 k 0)) = _
  refine congrArg (V m c main_v24) (funext fun a => Fin.ext ?_)
  match a with
  | ⟨0, _⟩ => show win0_5.index t (0 : Fin 2) * 128 + 1 * k.val = k.val; omega
  | ⟨1, _⟩ => show win0_5.index t (1 : Fin 2) * 1 + 1 * 0 = 0; omega

theorem bias_scalar_block (c : Dev nD) (t : Fin cfg0.N) :
    iblk m c 6 t (ix2 0 0) = V m c main_v25 (ix2 0 0) := by
  obtain ⟨-, -, -, -, -, -, -, -, -, -, -, -, e0, e1, -⟩ := block_indices t
  show V m c main_v25 (((cfg0.win 6).blk t).view.emb (ix2 0 0)) = _
  refine congrArg (V m c main_v25) (funext fun a => Fin.ext ?_)
  match a with
  | ⟨0, _⟩ => show win0_6.index t (0 : Fin 2) * 1 + 1 * 0 = 0; omega
  | ⟨1, _⟩ => show win0_6.index t (1 : Fin 2) * 1 + 1 * 0 = 0; omega

/-- Entry `(p, q)` of the result's block at tile `t` is entry `(t * 10000 + p, q)` of the result. -/
theorem result_block_index (t : Fin cfg0.N) (p : Fin 10000) (q : Fin 1) :
    ((cfg0.win 7).blk t).view.emb (ix2 p q) = ix2 (rowOf t p) q := by
  obtain ⟨-, -, -, -, -, -, -, -, -, -, -, -, -, -, e0, e1⟩ := block_indices t
  refine funext fun a => Fin.ext ?_
  match a with
  | ⟨0, _⟩ => show win0_7.index t (0 : Fin 2) * 10000 + 1 * p.val = t.val * 10000 + p.val; omega
  | ⟨1, _⟩ => show win0_7.index t (1 : Fin 2) * 1 + 1 * q.val = q.val; omega

/-! ## What tile `t` writes back, the cover, the final array -/

/-- What tile `t` writes back is its block of `tiledScores` of the arrays as the call found them. -/
theorem flushed_eq (c : Dev nD) (t : Fin cfg0.N) :
    (dats m 0 c).flushed 7 t = ((cfg0.win 7).blk t).view.read (Elt Ideal)
      (tiledScores (V m c main_v11) (V m c main_v18) (V m c main_v20) (V m c main_v22) (V m c main_v23) (V m c main_v24) (V m c main_v25)) := by
  show (cfg0.win 7).cut (grid0.coords t) ((dats m 0 c).after 7 t) = _
  rw [after0_7]
  unfold out0_7
  rw [View.canon_unit_zero zero_offsets]
  simp only [View.ld_unit_zero (S := S10000x128) zero_offsets, View.ld_unit_zero (S := S128x128) zero_offsets,
    View.ld_unit_zero (S := S1x128) zero_offsets, View.ld_unit_zero (S := S128x1) zero_offsets,
    View.ld_unit_zero (S := S1x1) zero_offsets]
  funext y
  obtain ⟨p, q, rfl⟩ : ∃ (p : Fin 10000) (q : Fin 1), y = ix2 p q := ⟨y 0, y 1, eq_ix2 y⟩
  show k0_pay1 (F := Ideal) (iblk m c 0 t) (iblk m c 1 t) (iblk m c 2 t) (iblk m c 3 t) (iblk m c 4 t) (iblk m c 5 t) (iblk m c 6 t) (ix2 p q)
    = tiledScores (V m c main_v11) (V m c main_v18) (V m c main_v20) (V m c main_v22) (V m c main_v23) (V m c main_v24) (V m c main_v25)
        (((cfg0.win 7).blk t).view.emb (ix2 p q))
  rw [result_block_index t p q]
  refine (payload_apply (iblk m c 0 t) (iblk m c 1 t) (iblk m c 2 t) (iblk m c 3 t) (iblk m c 4 t) (iblk m c 5 t) (iblk m c 6 t) p q).trans ?_
  simp only [source_block, dest_block, upper_block, lower_block, bias_row_block, column_block, bias_scalar_block]
  exact score_comp (rowOf t) (fun e j => V m c main_v11 (ix2 e j)) (fun e j => V m c main_v18 (ix2 e j)) _ _ _ _ _ p

/-- An entry of the result is in tile `t`'s block iff each coordinate is in the block's range on its axis. -/
theorem mem_result_block (t : Fin cfg0.N) (i : S800000x1.Idx) :
    i ∈ ((cfg0.win 7).blk t).view.set ↔ ∀ a : Fin 2, win0_7.index t a * S10000x1.size a ≤ (i a).val ∧ (i a).val < win0_7.index t a * S10000x1.size a + S10000x1.size a := by
  show i ∈ ((View.whole main_v26).slice (win0_7.rect t)).set ↔ _
  rw [View.set_slice_whole, Rect.mem_set_unit]
  exact Iff.rfl

/-- Every row of the result is written: row `r` by tile `r / 10000`. -/
theorem tiles_cover (i : S800000x1.Idx) : ∃ t : Fin cfg0.N, (cfg0.win 7).flush t = true ∧ i ∈ ((cfg0.win 7).blk t).view.set := by
  have hi0 : (i 0).val < 800000 := (i 0).isLt
  have hi1 : (i 1).val < 1 := (i 1).isLt
  have ht : (i 0).val / 10000 < cfg0.N := by show _ < grid0.N; rw [N_0]; omega
  obtain ⟨-, -, -, -, -, -, -, -, -, -, -, -, -, -, e0, e1⟩ := block_indices ⟨(i 0).val / 10000, ht⟩
  refine ⟨⟨(i 0).val / 10000, ht⟩, flush0_7 _, ?_⟩
  rw [mem_result_block]
  intro a
  match a with
  | ⟨0, _⟩ =>
    show win0_7.index ⟨(i 0).val / 10000, ht⟩ (0 : Fin 2) * 10000 ≤ (i 0).val
      ∧ (i 0).val < win0_7.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_7.index ⟨(i 0).val / 10000, ht⟩ (1 : Fin 2) * 1 ≤ (i 1).val
      ∧ (i 1).val < win0_7.index ⟨(i 0).val / 10000, ht⟩ (1 : Fin 2) * 1 + 1
    omega

/-- After the run the result array is `tiledScores` of the arrays as the call found them. -/
theorem final_array (c : Dev nD) : (dats m 0 c).arrAt 7 cfg0.N
    = tiledScores (V m c main_v11) (V m c main_v18) (V m c main_v20) (V m c main_v22) (V m c main_v23) (V m c main_v24) (V m c main_v25) :=
  (dats m 0 c).arrAt_eq_of_cover 7 _ (fun t _ => flushed_eq m c t) tiles_cover

end Cert.EdgeMlp

end
-- ==== Proof.Operands.lean ====
/-
  What the kernel's call is given: each of its seven operands, as the host operations before the call leave it,
  in terms of the program's arguments.

  The host operations before the call pick the source and destination row of every edge exactly as the reference
  does (the same slices of the edge list, the same wrap of a negative index by the number of nodes, the same
  gather), so the two gathered arrays ARE the reference's two gather stages of the same arguments; on the
  extended reals the change of float format in front of the gather is the identity. Likewise the two weight halves
  are the reference's two slices of the first weight matrix, and the weight column is the argument itself. The
  two biases are re-laid: the bias vector as a 1 × 128 row (entry `(0, k)` is entry `k`), the scalar bias as a 1 × 1
  array (its entry is the argument's one entry).
-/
import proofs.«105263_j71511205478789_2_alg».proof.Proof.Gen.KernelIdeal.Frame
import proofs.«105263_j71511205478789_2_alg».proof.Proof.Gen.ReferenceIdeal.Read
import Idealize.ShloMosaic.Lib.StableHlo.Run
import Idealize.ShloMosaic.Lib.ValueIdx
import Idealize.ShloMosaic.Lib.Pipeline.Value

noncomputable section

namespace Cert.EdgeMlp

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The gathered source rows are the reference's gather of the same node features by the same edge list. -/
theorem found_sources (c : Dev nD) : (V m c main_v11 : S800000x128.Idx → EReal)
    = Cert.ReferenceIdeal.Read.val_main_v12 (F := Ideal) (m ((c : Thread nD τ).loc main_arg0)) (m ((c : Thread nD τ).loc main_arg1)) := by
  dsimp only [V, hostOps0]
  after_results_simp
  rfl

/-- The gathered destination rows likewise. -/
theorem found_dests (c : Dev nD) : (V m c main_v18 : S800000x128.Idx → EReal)
    = Cert.ReferenceIdeal.Read.val_main_v20 (F := Ideal) (m ((c : Thread nD τ).loc main_arg0)) (m ((c : Thread nD τ).loc main_arg1)) := by
  dsimp only [V, hostOps0]
  after_results_simp
  rfl

/-- The upper half of the first weight matrix is the reference's slice of it. -/
theorem found_upper (c : Dev nD) : (V m c main_v20 : S128x128.Idx → EReal)
    = Cert.ReferenceIdeal.Read.val_main_v4 (F := Ideal) (m ((c : Thread nD τ).loc main_arg2)) := by
  dsimp only [V, hostOps0]
  after_results_simp
  rfl

/-- The lower half likewise. -/
theorem found_lower (c : Dev nD) : (V m c main_v22 : S128x128.Idx → EReal)
    = Cert.ReferenceIdeal.Read.val_main_v5 (F := Ideal) (m ((c : Thread nD τ).loc main_arg2)) := by
  dsimp only [V, hostOps0]
  after_results_simp
  rfl

/-- The bias vector laid as a row: entry `(0, k)` is the vector's entry `k`. -/
theorem found_bias_row (c : Dev nD) (k : Fin 128) :
    (V m c main_v23 : S1x128.Idx → EReal) (ix2 0 k) = m ((c : Thread nD τ).loc main_arg3) (ix1 k) := by
  have e : (V m c main_v23 : S1x128.Idx → EReal)
      = shapeCast S1x128 (m ((c : Thread nD τ).loc main_arg3)) Facts₀.shapeCasts_S128_S1x128 := by
    dsimp only [V, hostOps0]
    after_results_simp
    rfl
  rw [e]
  exact shapeCast_apply _ _ (ix2 0 k) (ix1 k)
    (by rw [Shape.rowMajor_val_one, Shape.rowMajor_val_two]; show k.val = 0 * 128 + k.val; omega)

/-- The weight column is the argument itself. -/
theorem found_column (c : Dev nD) : (V m c main_v24 : S128x1.Idx → EReal) = m ((c : Thread nD τ).loc main_arg4) := by
  dsimp only [V, hostOps0]
  after_results_simp
  rfl

/-- The scalar bias laid as a 1 × 1 array: its entry is the argument's one entry. -/
theorem found_bias_scalar (c : Dev nD) :
    (V m c main_v25 : S1x1.Idx → EReal) (ix2 0 0) = m ((c : Thread nD τ).loc main_arg5) (ix1 0) := by
  have e : (V m c main_v25 : S1x1.Idx → EReal)
      = shapeCast S1x1 (m ((c : Thread nD τ).loc main_arg5)) Facts₀.shapeCasts_S1_S1x1 := by
    dsimp only [V, hostOps0]
    after_results_simp
    rfl
  rw [e]
  exact shapeCast_apply _ _ (ix2 0 0) (ix1 0)
    (by rw [Shape.rowMajor_val_one, Shape.rowMajor_val_two]; show (0 : Nat) = 0 * 1 + 0; omega)

end Cert.EdgeMlp

end
-- ==== Proof.RefScore.lean ====
/-
  The reference's result, entry by entry, is the score of each edge.

  The reference gathers a source row and a destination row of node features per edge, multiplies them by the
  two halves of the first weight matrix, adds the bias, clamps at zero, multiplies by the weight column and adds
  the scalar bias. Read one operation at a time at entry `(e, 0)`, that is `score` at edge `e` over the two
  gathered arrays, the two slices of the weight matrix, and the biases and column as given. The gathers stay
  whole here: which row each edge gathers is the same on both sides of the comparison and is never opened.
-/
import proofs.«105263_j71511205478789_2_alg».proof.Proof.Gen.ReferenceIdeal.Read
import proofs.«105263_j71511205478789_2_alg».proof.Proof.EdgeScore

noncomputable section

namespace Cert.EdgeMlp

open Idealize.ShloMosaic Idealize.ShloMosaic.ValueIdx Cert.ReferenceIdeal Cert.ReferenceIdeal.Read

/-- Entry `(e, 0)` of the reference's result is the score of edge `e`. -/
theorem reference_is_score (x0 : (⟨S100000x128, .f32⟩ : BufTy).Contents (Elt Ideal)) (x1 : (⟨S2x800000, .i32⟩ : BufTy).Contents (Elt Ideal))
    (x2 : (⟨S256x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal)) :
    val_main_v30 (F := Ideal) x0 x1 x2 x3 x4 x5
      = fun i => score (fun e j => val_main_v12 (F := Ideal) x0 x1 (ix2 e j)) (fun e j => val_main_v20 (F := Ideal) x0 x1 (ix2 e j))
          (fun j k => val_main_v4 (F := Ideal) x2 (ix2 j k)) (fun j k => val_main_v5 (F := Ideal) x2 (ix2 j k))
          (fun k => x3 (ix1 k)) (fun k => x4 (ix2 k 0)) (x5 (ix1 0)) (i 0) := by
  funext i
  obtain ⟨e, q, rfl⟩ : ∃ (e : Fin 800000) (q : Fin 1), i = ix2 e q := ⟨i 0, i 1, eq_ix2 i⟩
  obtain rfl : q = 0 := Subsingleton.elim _ _
  -- the second layer: a sum over the hidden index, plus the scalar bias
  have hl : ∀ k : Fin 128, lidx_main_v27 (ix2 e (0 : Fin 1)) k = ix2 e k := fun k =>
    funext fun a => Fin.ext (by match a with | ⟨0, _⟩ => rfl | ⟨1, _⟩ => rfl)
  have hr : ∀ k : Fin 128, ridx_main_v27 (ix2 e (0 : Fin 1)) k = ix2 k (0 : Fin 1) := fun k =>
    funext fun a => Fin.ext (by match a with | ⟨0, _⟩ => rfl | ⟨1, _⟩ => rfl)
  have h5 : idx_main_v28 (idx_main_v29 (ix2 e (0 : Fin 1))) = ix1 (0 : Fin 1) :=
    funext fun a => Fin.ext (by match a with | ⟨0, _⟩ => rfl)
  rw [val_main_v30_apply, val_main_v27_apply, val_main_v29_apply, val_main_v28_apply, h5]
  unfold score
  show (∑ k : Fin 128, _) + x5 (ix1 0) = _
  refine congrArg (· + x5 (ix1 0)) (Finset.sum_congr rfl fun k _ => ?_)
  rw [hl, hr]
  -- the first layer at hidden index k
  have hl1 : ∀ j : Fin 128, lidx_main_v13 (ix2 e k) j = ix2 e j := fun j =>
    funext fun a => Fin.ext (by match a with | ⟨0, _⟩ => rfl | ⟨1, _⟩ => rfl)
  have hr1 : ∀ j : Fin 128, ridx_main_v13 (ix2 e k) j = ix2 j k := fun j =>
    funext fun a => Fin.ext (by match a with | ⟨0, _⟩ => rfl | ⟨1, _⟩ => rfl)
  have hl2 : ∀ j : Fin 128, lidx_main_v21 (ix2 e k) j = ix2 e j := fun j =>
    funext fun a => Fin.ext (by match a with | ⟨0, _⟩ => rfl | ⟨1, _⟩ => rfl)
  have hr2 : ∀ j : Fin 128, ridx_main_v21 (ix2 e k) j = ix2 j k := fun j =>
    funext fun a => Fin.ext (by match a with | ⟨0, _⟩ => rfl | ⟨1, _⟩ => rfl)
  have hb : idx_main_v23 (idx_main_v24 (ix2 e k)) = ix1 k :=
    funext fun a => Fin.ext (by match a with | ⟨0, _⟩ => rfl)
  rw [val_main_v26_apply, val_main_v25_apply, val_main_v22_apply, val_main_v13_apply, val_main_v21_apply,
    val_main_v24_apply, val_main_v23_apply, hb, val_main_call0_v0_apply, val_main_call0_cst_apply]
  simp only [hl1, hr1, hl2, hr2, Ideal.addf_def, Ideal.maximumf_def, Ideal.ofBits_def, Ideal.ofBits_zero_f32]

end Cert.EdgeMlp

end
-- ==== Proof.KernelRun.lean ====
/-
  The kernel's run, with its result named in the reference's terms.

  After the run the result array is every edge's score over the arrays the call was given; those arrays are the
  reference's own gather and slice stages of the same arguments, the bias row and the 1 × 1 bias read back to the
  bias vector and the scalar; and the reference's result, entry by entry, is every edge's score over exactly those.
  So the kernel's result array is the reference's result term of the kernel's arguments.
-/
import proofs.«105263_j71511205478789_2_alg».proof.Proof.KernelValue
import proofs.«105263_j71511205478789_2_alg».proof.Proof.Operands
import proofs.«105263_j71511205478789_2_alg».proof.Proof.RefScore

noncomputable section

namespace Cert.EdgeMlp

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The result array after the run is the reference's result stage of the kernel's arguments. -/
theorem result_is_reference (c : Dev nD) : (dats m 0 c).arrAt 7 cfg0.N
    = Cert.ReferenceIdeal.Read.val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  rw [final_array, reference_is_score]
  funext i
  obtain ⟨e, q, rfl⟩ : ∃ (e : Fin 800000) (q : Fin 1), i = ix2 e q := ⟨i 0, i 1, eq_ix2 i⟩
  show score (fun e j => (V m c main_v11 : S800000x128.Idx → EReal) (ix2 e j))
      (fun e j => (V m c main_v18 : S800000x128.Idx → EReal) (ix2 e j))
      (fun j k => (V m c main_v20 : S128x128.Idx → EReal) (ix2 j k)) (fun j k => (V m c main_v22 : S128x128.Idx → EReal) (ix2 j k))
      (fun k => (V m c main_v23 : S1x128.Idx → EReal) (ix2 0 k)) (fun k => (V m c main_v24 : S128x1.Idx → EReal) (ix2 k 0))
      ((V m c main_v25 : S1x1.Idx → EReal) (ix2 0 0)) e = _
  rw [found_sources, found_dests, found_upper, found_lower, found_column, found_bias_scalar,
    funext (found_bias_row m c)]

/-- Every weakly fair execution of the idealized kernel program terminates with its result at the reference's
    result stage of its own arguments, the arguments unchanged. -/
theorem kernel_run : θ_run defs (onTc (τ := τ) (main (F := Ideal))) ⟨m, fun _ => 0, ρ⟩ fun r => ∀ c : Dev nD,
      r.2.mem ((c : Thread nD τ).loc main_v26)
        = Cert.ReferenceIdeal.Read.val_main_v30 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_is_reference m c), (h c).2⟩) (Cert.KernelIdeal.Value.run_blocks m ρ)

end Cert.EdgeMlp

end
-- ==== Proof.lean ====
/-
  An edge decoder: for each of 800000 edges, gather the feature rows of its two end nodes, pass them through a
  two-layer perceptron, and return one score,

      score e = (∑ k, max ((∑ j, z[src e, j] · W1[j, k]) + (∑ j, z[dst e, j] · W1[128 + j, k]) + b1[k]) 0 · W2[k, 0]) + b2[0].

  The kernel program gathers on the host, then runs the perceptron over 80 tiles of 10000 edges, in a narrower
  float format with each matrix product accumulated into zeros; the reference computes the same expression over
  all edges at once. On the extended reals a change of float format is the identity and a product accumulated
  into zero is the plain sum over the contracted index (`0 + x = x` for every extended real, the infinities
  included), so no finiteness of the inputs is used. The two programs choose each edge's rows by the same host
  operations, so the gathers are compared whole and never opened.

  The proof: the score as plain mathematics (EdgeScore); the stored block of a tile at a row is the score of that
  row (Payload); a tile's rows are consecutive rows of the whole and the 80 tiles cover it (KernelValue); the
  call's operands are the reference's own stages of the arguments (Operands); the reference's result entry by
  entry is the score (RefScore); so the kernel's result array is the reference's result term (KernelRun). Each of the
  two kernel programs runs, faults nowhere and leaves its arguments unchanged by its generated frame; the
  reference, a host program, by its generated run. The idealized kernel is the printed kernel read on the
  extended reals with no rewrite, so there is nothing to preserve beyond that.
-/
import proofs.«105263_j71511205478789_2_alg».proof.Defs
import proofs.«105263_j71511205478789_2_alg».proof.Proof.Gen.Kernel
import proofs.«105263_j71511205478789_2_alg».proof.Proof.Gen.Kernel.Skeleton
import proofs.«105263_j71511205478789_2_alg».proof.Proof.Gen.Kernel.Launch
import proofs.«105263_j71511205478789_2_alg».proof.Proof.Gen.Kernel.Points
import proofs.«105263_j71511205478789_2_alg».proof.Proof.Gen.Kernel.Frame
import proofs.«105263_j71511205478789_2_alg».proof.Proof.Gen.KernelIdeal
import proofs.«105263_j71511205478789_2_alg».proof.Proof.Gen.KernelIdeal.Skeleton
import proofs.«105263_j71511205478789_2_alg».proof.Proof.Gen.KernelIdeal.Launch
import proofs.«105263_j71511205478789_2_alg».proof.Proof.Gen.KernelIdeal.Points
import proofs.«105263_j71511205478789_2_alg».proof.Proof.Gen.KernelIdeal.Frame
import proofs.«105263_j71511205478789_2_alg».proof.Proof.Gen.ReferenceIdeal
import proofs.«105263_j71511205478789_2_alg».proof.Proof.Gen.Pre_finite_inputs
import proofs.«105263_j71511205478789_2_alg».proof.Proof.Gen.KernelIdeal.Value
import proofs.«105263_j71511205478789_2_alg».proof.Proof.Gen.ReferenceIdeal.Run
import proofs.«105263_j71511205478789_2_alg».proof.Proof.Gen.ReferenceIdeal.Read
import proofs.«105263_j71511205478789_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference is a host program: its run, with the result dropped, is its frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the printed kernel with no operation rewritten. -/
theorem preserves : Cert.preserves_Kernel_KernelIdeal := trivial

/-- From memories agreeing on the arguments, the kernel's result array is the reference's result term of the
    kernel's arguments, and the reference's is the same term of its own, which are the kernel's. -/
theorem algebraic : Cert.algebraic_KernelIdeal_ReferenceIdeal := by
  intro m ρ m' ρ' _ hagree
  refine ⟨_, Cert.EdgeMlp.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.Read.val_main_v30_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
